-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .f32) (main_arg1 : FVec F S256x1024 .f32) (main_arg2 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Kernel.lean ====
abbrev S8192x1024 : Shape := ⟨2, ![8192, 1024]⟩
abbrev S256x1024 : Shape := ⟨2, ![256, 1024]⟩
abbrev S_ : Shape := ⟨0, ![]⟩
abbrev S256 : Shape := ⟨1, ![256]⟩
abbrev S1x256 : Shape := ⟨2, ![1, 256]⟩
abbrev S8192x256 : Shape := ⟨2, ![8192, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 30
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S1x256, .f32⟩
  | .hbm, ⟨28, _⟩ => ⟨S256x1024, .bf16⟩
  | .hbm, ⟨29, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .bf16⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S256x1024 : S_.BroadcastsInDim S256x1024 (![] : Fin 0 → Fin S256x1024.rank)
  reducesTo_S256x1024_S256_d1 : S256x1024.ReducesTo [1] S256
  h_S_ : 0 < S_.numel
  bcast_S_S256 : S_.BroadcastsInDim S256 (![] : Fin 0 → Fin S256.rank)
  reducesTo_S256_S_d0 : S256.ReducesTo [0] S_
  shapeCasts_S256_S1x256 : S256.ShapeCasts S1x256
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  dot_S512x1024_S256x1024_S512x256_1_1_0_0_n_n_wf : DotDims.WF S512x1024 S256x1024 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x256.size a
  hwx0_5 : ∀ i : grid0.Coords, EltTy.bits .f32 = 32 ∨ (Rect.block (s := S8192x256) S512x256.size (cc0_transform_5 i) (hinb0_5 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S256x1024 : Shape := ⟨2, ![256, 1024]⟩
abbrev S_ : Shape := ⟨0, ![]⟩
abbrev S256 : Shape := ⟨1, ![256]⟩
abbrev S8192x256 : Shape := ⟨2, ![8192, 256]⟩
abbrev S1x256 : Shape := ⟨2, ![1, 256]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S8192x1024, .f32⟩
  | .hbm, ⟨22, _⟩ => ⟨S8192x256, .f32⟩
  | .hbm, ⟨23, _⟩ => ⟨S256x1024, .f32⟩
  | .hbm, ⟨24, _⟩ => ⟨S8192x256, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S1x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x256, .f32⟩
  | .hbm, ⟨43, _⟩ => ⟨S8192x256, .f32⟩
  | .hbm, ⟨44, _⟩ => ⟨S1x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x256, .f32⟩
  | .hbm, ⟨52, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S_S256x1024 : S_.BroadcastsInDim S256x1024 (![] : Fin 0 → Fin S256x1024.rank)
  reducesTo_S256x1024_S256_d1 : S256x1024.ReducesTo [1] S256
  h_S_ : 0 < S_.numel
  bcast_S_S256 : S_.BroadcastsInDim S256 (![] : Fin 0 → Fin S256.rank)
  reducesTo_S256_S_d0 : S256.ReducesTo [0] S_
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x1024_S256x1024_S8192x256_1_1_0_0_n_n_wf : DotDims.WF S8192x1024 S256x1024 S8192x256 [1] [1] [0] [0] [] []

variable [Facts₀]

def dot_S8192x1024_S256x1024_S8192x256_1_1_0_0_n_n : DotDims S8192x1024 S256x1024 S8192x256 where
  lhsContracting := [1]
  rhsContracting := [1]
  lhsNonContracting := [0]
  rhsNonContracting := [0]
  lhsBatch := []
  rhsBatch := []
  wf := dot_S8192x1024_S256x1024_S8192x256_1_1_0_0_n_n_wf

class Facts : Prop extends Facts₀ where

variable [Facts]
-- ==== Proof.Spec.lean ====
/-
  The responsibilities of a mixture of 256 axis-aligned Gaussians in dimension 1024, as one function of the sample
  matrix and of four per-class tables, entry by entry, on the extended reals.

  For a sample row `x` and a class `k`, with `dinv k d` the inverse scale of class `k` along axis `d`, `cd k d` the class
  centre times that inverse scale, `c2 k` the centre's weighted square norm and `dss k` the class's determinant weight:

    expo k  = -1/2 · ( Σ_d x_d · x_d · dinv k d  -  2 · Σ_d x_d · cd k d  +  c2 k )        (minus half the squared distance)
    numer k = dss k · exp (expo k - max_k' expo k')
    resp k  = numer k / Σ_k' numer k'

  The three literals are the f32 patterns of -1/2, 2 and -∞; they are kept as patterns: both programs use the same ones.
  The maximum is a fold of `max` over the 256 classes started from -∞, the sums are finite sums; no order is fixed.
-/
import Idealize.ShloMosaic.PureOps.Ideal
import Idealize.ShloMosaic.Lib.ValueIdx

noncomputable section

open scoped BigOperators

namespace Cert.Gmm

open Idealize.ShloMosaic Idealize.ShloMosaic.ValueIdx

/-- Minus half the squared distance of a sample row to each class, in the expanded quadratic form. -/
def expo (xr : Fin 1024 → EReal) (dinv cd : Fin 256 → Fin 1024 → EReal) (c2 : Fin 256 → EReal) (k : Fin 256) : EReal :=
  Ideal.ofBits .f32 0xBF000000#32
    * ((∑ d : Fin 1024, xr d * xr d * dinv k d) - Ideal.ofBits .f32 0x40000000#32 * (∑ d : Fin 1024, xr d * cd k d) + c2 k)

/-- The largest exponent of a row: the fold of `max` from -∞ over the classes. -/
def rowMax (e : Fin 256 → EReal) : EReal :=
  (Finset.univ : Finset (Fin 256)).fold max (Ideal.ofBits .f32 0xFF800000#32) e

/-- The unnormalised weight of class `k`: its determinant weight times the exponential of its shifted exponent. -/
def numer (dss e : Fin 256 → EReal) (k : Fin 256) : EReal :=
  dss k * Ideal.exp (e k - rowMax e)

/-- The responsibility of class `k`: its weight over the sum of the row's weights. -/
def resp (dss e : Fin 256 → EReal) (k : Fin 256) : EReal :=
  Ideal.div (numer dss e k) (∑ k' : Fin 256, numer dss e k')

/-- The whole result: entry `(b, k)` is the responsibility of class `k` for sample row `b`. -/
def G (x : (⟨2, ![8192, 1024]⟩ : Shape).Idx → EReal) (dinv cd : (⟨2, ![256, 1024]⟩ : Shape).Idx → EReal)
    (c2 dss : Fin 256 → EReal) : (⟨2, ![8192, 256]⟩ : Shape).Idx → EReal :=
  fun i => resp dss (expo (fun d => x (ix2 (i 0) d)) (fun k d => dinv (ix2 k d)) (fun k d => cd (ix2 k d)) c2) (i 1)

end Cert.Gmm

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.LibRowMax.lean ====
/-
  The maximum of a row, read at an index, for matrices of `n` rows and `m` columns on the extended reals.
  A lane reduction by maximum along the rows of a matrix, and the host's reduce by maximum along the same axis, are both
  the fold of `max` over the row's entries, started from the accumulator's (respectively the initial) value. Since `max`
  commutes and associates the order of the fold does not matter, and both read the same finite set of entries.
  Nothing here depends on a program.
-/
import Idealize.ShloMosaic.Lib.Pipeline.Value
import Idealize.ShloMosaic.Lib.ValueIdx
import Idealize.ShloMosaic.PureOps.Ideal.Laws

noncomputable section

open scoped BigOperators

namespace Cert.LibRowMax

open Idealize.ShloMosaic Idealize.ShloMosaic.ValueIdx

/-- The index over row `r` with `k` inserted on the reduced axis is `(r, k)`. -/
theorem lift_row {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by maximum of an `n × m` matrix along its rows: at row `r` the fold of `max` over the row's entries,
    from the value the accumulator's pattern denotes. -/
theorem multiReduction_max_rows {n m : Nat} (src : FVec Ideal ⟨2, ![n, m]⟩ .f32) (acc : BitVec 32)
    (h : (⟨2, ![n, m]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin m)).fold max (Ideal.ofBits .f32 acc) (fun k => src (ix2 r k)) :=
  (Ideal.multiReduction_maximumf_single src acc h hφ hacc (ix1 r)).trans
    (congrArg (fun f : Fin m → EReal => (Finset.univ : Finset (Fin m)).fold max (Ideal.ofBits .f32 acc) f)
      (funext fun k => congrArg src (lift_row h r k)))

/-- The host's reduce by maximum of an `n × m` matrix along its rows: at row `r` the fold of `max` over the row's entries,
    from the initial value. -/
theorem hostReduceMax_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduce (FloatOps.maximumf (F := Ideal) (φ := .f32)) x init h' hu (ix1 r)
      = (Finset.univ : Finset (Fin m)).fold max (init ix0) (fun k => x (ix2 r k)) := by
  have e0 : Shape.Idx.first hu = ix0 := funext fun a => a.elim0
  rw [Host.reduce_eq_fold_single (FloatOps.maximumf (F := Ideal) (φ := .f32)) x init h' h hu (ix1 r), e0]
  exact congrArg (fun f : Fin m → EReal => (Finset.univ : Finset (Fin m)).fold max (init ix0) f)
    (funext fun k => congrArg x (lift_row h r k))

end Cert.LibRowMax

end
-- ==== Proof.BlockValue.lean ====
/-
  What the kernel body computes from the blocks it loads, entry by entry.

  The body loads a block `X` of 512 sample rows, the whole table of inverse scales `Dv`, the whole table `Cd` of centres
  times inverse scales, and the two one-row tables `C2` (weighted square norms of the centres) and `W` (determinant
  weights). Entry `(r, k)` of what it stores is the responsibility of class `k` for row `r` of the block
  (`Cert.Gmm.resp` of the row's exponents `Cert.Gmm.expo`):
  • each of the two matrix products into a zero accumulator is, at `(r, k)`, the sum over the 1024 axes of the products
    of row `r` of the left operand with row `k` of the right one (both operands are contracted along their second axis);
    the change of format of the second product's left operand is the identity on the extended reals;
  • the one-row tables are repeated down the 512 rows, so `(r, k)` reads their entry `(0, k)`;
  • the row maximum and the row sum are lane reductions along the rows, turned into a one-column matrix and repeated
    along the 256 columns, so `(r, k)` reads the reduction's entry `r`.
-/
import proofs.«170611_j87995289960656_2_alg».proof.Proof.Gen.KernelIdeal.Skeleton
import proofs.«170611_j87995289960656_2_alg».proof.Proof.Spec
import proofs.«170611_j87995289960656_2_alg».proof.Proof.LibColumns
import proofs.«170611_j87995289960656_2_alg».proof.Proof.LibRowMax
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## A matrix product of a 512 × 1024 by a 256 × 1024 operand, both contracted along their second axis -/

theorem lhs_row (i : S512x256.Idx) (q : dot_S512x1024_S256x1024_S512x256_1_1_0_0_n_n.contr.Idx) :
    (dot_S512x1024_S256x1024_S512x256_1_1_0_0_n_n.lhsIdx i q 0).val = (i 0).val := by
  unfold DotDims.lhsIdx
  rw [dif_neg (show ¬(0 : Fin S512x1024.rank) ∈ dot_S512x1024_S256x1024_S512x256_1_1_0_0_n_n.lhsBatch by decide),
    dif_pos (show (0 : Fin S512x1024.rank) ∈ dot_S512x1024_S256x1024_S512x256_1_1_0_0_n_n.lhsNonContracting by decide)]
  rfl

theorem lhs_axis (i : S512x256.Idx) (q : dot_S512x1024_S256x1024_S512x256_1_1_0_0_n_n.contr.Idx) :
    (dot_S512x1024_S256x1024_S512x256_1_1_0_0_n_n.lhsIdx i q 1).val = (q ⟨0, by decide⟩).val :=
  dot_S512x1024_S256x1024_S512x256_1_1_0_0_n_n.lhsIdx_val_of_single rfl i q

theorem rhs_row (i : S512x256.Idx) (q : dot_S512x1024_S256x1024_S512x256_1_1_0_0_n_n.contr.Idx) :
    (dot_S512x1024_S256x1024_S512x256_1_1_0_0_n_n.rhsIdx i q 0).val = (i 1).val := by
  unfold DotDims.rhsIdx
  rw [dif_neg (show ¬(0 : Fin S256x1024.rank) ∈ dot_S512x1024_S256x1024_S512x256_1_1_0_0_n_n.rhsBatch by decide),
    dif_pos (show (0 : Fin S256x1024.rank) ∈ dot_S512x1024_S256x1024_S512x256_1_1_0_0_n_n.rhsNonContracting by decide)]
  rfl

theorem rhs_axis (i : S512x256.Idx) (q : dot_S512x1024_S256x1024_S512x256_1_1_0_0_n_n.contr.Idx) :
    (dot_S512x1024_S256x1024_S512x256_1_1_0_0_n_n.rhsIdx i q 1).val = (q ⟨0, by decide⟩).val :=
  dot_S512x1024_S256x1024_S512x256_1_1_0_0_n_n.rhsIdx_val_of_single rfl i q

/-- The product into the zero accumulator at `(r, k)`: the sum over the axes `d` of `A (r, d) · B (k, d)`. -/
theorem matmul_entry {φ₁ φ₂ : FTy} (prec : Option ContractPrecision) (A : FVec Ideal S512x1024 φ₁) (B : FVec Ideal S256x1024 φ₂)
    (r : Fin 512) (k : Fin 256) :
    matmul dot_S512x1024_S256x1024_S512x256_1_1_0_0_n_n prec A B (constant (F := Ideal) S512x256 .f32 0x00000000#32) (ix2 r k)
      = ∑ d : Fin 1024, A (ix2 r d) * B (ix2 k d) := by
  simp only [matmul]
  rw [Ideal.matmul_constant_zero_apply,
    ← Equiv.sum_comp (contrEquiv1 dot_S512x1024_S256x1024_S512x256_1_1_0_0_n_n 1024 rfl rfl).symm]
  refine Finset.sum_congr rfl fun d _ => ?_
  have hd := contrEquiv1_symm_val dot_S512x1024_S256x1024_S512x256_1_1_0_0_n_n 1024 rfl rfl d
  have el : dot_S512x1024_S256x1024_S512x256_1_1_0_0_n_n.lhsIdx (ix2 r k)
      ((contrEquiv1 dot_S512x1024_S256x1024_S512x256_1_1_0_0_n_n 1024 rfl rfl).symm d) = ix2 r d :=
    funext fun a => Fin.ext (by
      match a with
      | ⟨0, _⟩ => exact lhs_row _ _
      | ⟨1, _⟩ => exact (lhs_axis _ _).trans hd)
  have er : dot_S512x1024_S256x1024_S512x256_1_1_0_0_n_n.rhsIdx (ix2 r k)
      ((contrEquiv1 dot_S512x1024_S256x1024_S512x256_1_1_0_0_n_n 1024 rfl rfl).symm d) = ix2 k d :=
    funext fun a => Fin.ext (by
      match a with
      | ⟨0, _⟩ => exact rhs_row _ _
      | ⟨1, _⟩ => exact (rhs_axis _ _).trans hd)
  rw [el, er]

/-! ## The exponents of a block -/

/-- Minus half the squared distance, as the body computes it from the two products and the row of square norms:
    entry `(r, k)` is `Cert.Gmm.expo` of row `r` of the block. -/
theorem expo_entry (X : FVec Ideal S512x1024 .f32) (Dv : FVec Ideal S256x1024 .f32) (Cd : FVec Ideal S256x1024 .bf16)
    (C2 : FVec Ideal S1x256 .f32) (hlt : FTy.bits .bf16 < FTy.bits .f32) (hb : S1x256.Broadcasts S512x256)
    (r : Fin 512) (k : Fin 256) :
    mulf (broadcast S512x256 (Scalar.ofBits (F := Ideal) .f32 0xBF000000#32))
        (addf (subf (matmul dot_S512x1024_S256x1024_S512x256_1_1_0_0_n_n (some .fp32) (mulf X X) Dv
              (constant (F := Ideal) S512x256 .f32 0x00000000#32))
            (mulf (broadcast S512x256 (Scalar.ofBits (F := Ideal) .f32 0x40000000#32))
              (matmul dot_S512x1024_S256x1024_S512x256_1_1_0_0_n_n none (truncf .bf16 X hlt) Cd
                (constant (F := Ideal) S512x256 .f32 0x00000000#32))))
          (broadcastTo S512x256 C2 hb)) (ix2 r k)
      = Cert.Gmm.expo (fun d => X (ix2 r d)) (fun k d => Dv (ix2 k d)) (fun k d => Cd (ix2 k d)) (fun k => C2 (ix2 0 k)) k := by
  rw [mulf_apply, addf_apply, subf_apply, mulf_apply, matmul_entry, matmul_entry, broadcastTo_1b_ab_apply]
  rfl

/-! ## A row statistic repeated along the columns -/

/-- A vector of 512 row statistics turned into a one-column matrix and repeated along the 256 columns reads, at
    `(r, k)`, the statistic of row `r`. -/
theorem col_entry (v : FVec Ideal S512 .f32) (hsc : S512.ShapeCasts S512x1) (hb : S512x1.Broadcasts S512x256)
    (r : Fin 512) (k : Fin 256) :
    broadcastTo S512x256 (shapeCast S512x1 v hsc) hb (ix2 r k) = v (ix1 r) := by
  rw [Cert.LibColumns.broadcastTo_col, Cert.LibColumns.shapeCast_vec_col]

/-! ## The weights of a block and their normalisation -/

/-- The unnormalised weights: entry `(r, k)` is `Cert.Gmm.numer` of row `r`'s exponents. -/
theorem numer_entry (E : FVec Ideal S512x256 .f32) (W : FVec Ideal S1x256 .f32) (hbw : S1x256.Broadcasts S512x256)
    (hred : S512x256.Reduces [1] S512) (hφ : FKind.Formats .f32) (hacc : (0xFF800000#32 : BitVec 32) = FKind.maximumf.neutral .f32 hφ)
    (hsc : S512.ShapeCasts S512x1) (hb : S512x1.Broadcasts S512x256) (r : Fin 512) (k : Fin 256) :
    mulf (broadcastTo S512x256 W hbw)
        (exp (subf E (broadcastTo S512x256 (shapeCast S512x1 (multiReduction .maximumf [1] S512 E 0xFF800000#32 hred hφ hacc) hsc) hb)))
        (ix2 r k)
      = Cert.Gmm.numer (fun k => W (ix2 0 k)) (fun k => E (ix2 r k)) k := by
  rw [mulf_apply, broadcastTo_1b_ab_apply]
  show W (ix2 0 k) * Ideal.exp (E (ix2 r k) - broadcastTo S512x256 (shapeCast S512x1 (multiReduction .maximumf [1] S512 E 0xFF800000#32 hred hφ hacc) hsc) hb (ix2 r k)) = _
  rw [col_entry, Cert.LibRowMax.multiReduction_max_rows]
  rfl

/-- A matrix of weights divided by its row sums (a lane sum, turned into a column and repeated): entry `(r, k)` is the
    weight over the sum of row `r`. -/
theorem normalise_entry (N : FVec Ideal S512x256 .f32) (hred : S512x256.Reduces [1] S512) (hφ : FKind.Formats .f32)
    (hacc : (0x00000000#32 : BitVec 32) = FKind.add.neutral .f32 hφ) (hsc : S512.ShapeCasts S512x1)
    (hb : S512x1.Broadcasts S512x256) (r : Fin 512) (k : Fin 256) :
    divf N (broadcastTo S512x256 (shapeCast S512x1 (multiReduction .add [1] S512 N 0x00000000#32 hred hφ hacc) hsc) hb) (ix2 r k)
      = Ideal.div (N (ix2 r k)) (∑ k' : Fin 256, N (ix2 r k')) := by
  rw [divf_apply, col_entry, Cert.LibColumns.multiReduction_rows]

/-- The same with the exponents named: if row `r` of `E` is `e`, the weights of row `r` are `Cert.Gmm.numer` of `e`. -/
theorem numer_of_expo (E : FVec Ideal S512x256 .f32) (W : FVec Ideal S1x256 .f32) (hbw : S1x256.Broadcasts S512x256)
    (hred : S512x256.Reduces [1] S512) (hφ : FKind.Formats .f32) (hacc : (0xFF800000#32 : BitVec 32) = FKind.maximumf.neutral .f32 hφ)
    (hsc : S512.ShapeCasts S512x1) (hb : S512x1.Broadcasts S512x256) (r : Fin 512) (k : Fin 256)
    (e : Fin 256 → EReal) (hE : ∀ k', E (ix2 r k') = e k') :
    mulf (broadcastTo S512x256 W hbw)
        (exp (subf E (broadcastTo S512x256 (shapeCast S512x1 (multiReduction .maximumf [1] S512 E 0xFF800000#32 hred hφ hacc) hsc) hb)))
        (ix2 r k)
      = Cert.Gmm.numer (fun k => W (ix2 0 k)) e k :=
  (numer_entry E W hbw hred hφ hacc hsc hb r k).trans
    (congrArg (fun f : Fin 256 → EReal => Cert.Gmm.numer (fun k => W (ix2 0 k)) f k) (funext hE))

/-! ## The body's payload -/

/-- What the body stores, read at `(r, k)`: the responsibility of class `k` for row `r` of the sample block, from the
    tables as loaded. (A shape cast between equal shapes is the identity.) -/
theorem payload_entry (v0 : Vec Ideal S512x1024 .f32) (v1 : Vec Ideal S256x1024 .f32) (v3 : Vec Ideal S256x1024 .bf16)
    (v5 v7 : Vec Ideal S1x256 .f32) (r : Fin 512) (k : Fin 256) :
    k0_pay1 v0 v1 v3 v5 v7 (ix2 r k)
      = Cert.Gmm.resp (fun k => v7 (ix2 0 k))
          (Cert.Gmm.expo (fun d => v0 (ix2 r d)) (fun k d => v1 (ix2 k d)) (fun k d => v3 (ix2 k d)) (fun k => v5 (ix2 0 k))) k := by
  unfold k0_pay1
  dsimp only
  simp only [shapeCast_self]
  refine (normalise_entry _ _ _ _ _ _ r k).trans ?_
  unfold Cert.Gmm.resp
  exact congrArg₂ Ideal.div
    (numer_of_expo _ v7 _ _ _ _ _ _ r k _ (fun k'' => expo_entry v0 v1 v3 v5 _ _ r k''))
    (Finset.sum_congr rfl fun k' _ =>
      numer_of_expo _ v7 _ _ _ _ _ _ r k' _ (fun k'' => expo_entry v0 v1 v3 v5 _ _ r k''))

end Cert.KernelIdeal.BlockValue

end
-- ==== Proof.ArrayValue.lean ====
/-
  From the blocks to the whole array: after the kernel's run the result array is `Cert.Gmm.G` of the sample matrix and of
  the four tables the region finds in memory.

  The grid has 16 points. At point `t` the sample window's block is rows `512 t … 512 t + 511` of the sample matrix, the
  four table windows' blocks are the whole tables (their block index is `(0, 0)` at every point), and the result window's
  block is rows `512 t … 512 t + 511` of the result. So what point `t` writes back — the body's payload of the blocks at
  `t` — is block `t` of `G`: entry `(r, k)` of the payload depends on row `r` of the sample block, which is row
  `512 t + r` of the sample matrix. Every row `b` of the result lies in the block of point `b / 512`, so the 16 blocks
  cover the array and the array is `G` everywhere.
-/
import proofs.«170611_j87995289960656_2_alg».proof.Proof.Gen.KernelIdeal.Value
import proofs.«170611_j87995289960656_2_alg».proof.Proof.BlockValue

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of each window at each of the 16 grid points: the sample and the result windows move down one block
    per point, the four table windows stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input windows' blocks, read at an index -/

/-- The sample window's block at point `t`: entry `x` is the sample matrix at row `512 t + x 0`, column `x 1`. -/
theorem samples_apply (c : Dev nD) (t : Fin cfg0.N) (x : S512x1024.Idx) (i : S8192x1024.Idx)
    (h0 : (i 0).val = 512 * t.val + (x 0).val) (h1 : (i 1).val = (x 1).val) :
    (iblk m c 0 t : Vec Ideal S512x1024 .f32) x = (V m c main_arg0 : S8192x1024.Idx → EReal) i := by
  obtain ⟨e0, e1, -⟩ := idx_facts t
  unfold iblk
  rw [View.read_apply]
  show (V m c main_arg0 : S8192x1024.Idx → EReal) _ = V m c main_arg0 _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 1024 + 1 * (x 1).val = (i 1).val; rw [e1, h1]; omega

/-- The table of inverse scales is staged whole at every point. -/
theorem dinv_apply (c : Dev nD) (t : Fin cfg0.N) (x : S256x1024.Idx) :
    (iblk m c 1 t : Vec Ideal S256x1024 .f32) x = (V m c main_v4 : S256x1024.Idx → EReal) x := by
  obtain ⟨-, -, e0, e1, -⟩ := idx_facts t
  unfold iblk
  rw [View.read_apply]
  show (V m c main_v4 : S256x1024.Idx → EReal) _ = V m c main_v4 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 1024 + 1 * (x 1).val = (x 1).val; rw [e1]; omega

/-- The table of centres times inverse scales is staged whole at every point. -/
theorem cdinv_apply (c : Dev nD) (t : Fin cfg0.N) (x : S256x1024.Idx) :
    (iblk m c 2 t : Vec Ideal S256x1024 .bf16) x = (V m c main_v19 : S256x1024.Idx → EReal) x := by
  obtain ⟨-, -, -, -, e0, e1, -⟩ := idx_facts t
  unfold iblk
  rw [View.read_apply]
  show (V m c main_v19 : S256x1024.Idx → EReal) _ = V m c main_v19 _
  congr 1
  funext a
  apply Fin.ext
  match a with
  | ⟨0, _⟩ => show win0_2.index t (0 : Fin 2) * 256 + 1 * (x 0).val = (x 0).val; rw [e0]; omega
  | ⟨1, _⟩ => show win0_2.index t (1 : Fin 2) * 1024 + 1 * (x 1).val = (x 1).val; rw [e1]; omega

/-- The row of the centres' square norms is staged whole at every point. -/
theorem c2_apply (c : Dev nD) (t : Fin cfg0.N) (x : S1x256.Idx) :
    (iblk m c 3 t : Vec Ideal S1x256 .f32) x = (V m c main_v17 : S1x256.Idx → EReal) x := by
  obtain ⟨-, -, -, -, -, -, e0, e1, -⟩ := idx_facts t
  unfold iblk
  rw [View.read_apply]
  show (V m c main_v17 : S1x256.Idx → EReal) _ = V m c main_v17 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The row of determinant weights is staged whole at every point. -/
theorem dss_apply (c : Dev nD) (t : Fin cfg0.N) (x : S1x256.Idx) :
    (iblk m c 4 t : Vec Ideal S1x256 .f32) x = (V m c main_v18 : S1x256.Idx → EReal) x := by
  obtain ⟨-, -, -, -, -, -, -, -, e0, e1, -⟩ := idx_facts t
  unfold iblk
  rw [View.read_apply]
  show (V m c main_v18 : S1x256.Idx → EReal) _ = V m c main_v18 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-! ## One entry of a block is one entry of `G` -/

/-- The body's payload of blocks that agree with whole arrays — the sample block's row `y 0` with the sample matrix's row
    `i 0`, the tables entirely — is, at `y`, `Cert.Gmm.G` of those arrays at `i`, when `y` and `i` have the same column. -/
theorem block_entry (x0 : Vec Ideal S512x1024 .f32) (x1 : Vec Ideal S256x1024 .f32) (x2 : Vec Ideal S256x1024 .bf16)
    (x3 x4 : Vec Ideal S1x256 .f32)
    (X : S8192x1024.Idx → EReal) (Dv Cd : S256x1024.Idx → EReal) (C2 W : S1x256.Idx → EReal)
    (y : S512x256.Idx) (i : S8192x256.Idx)
    (h0 : ∀ d : Fin 1024, x0 (ix2 (y 0) d) = X (ix2 (i 0) d))
    (h1 : ∀ (k : Fin 256) (d : Fin 1024), x1 (ix2 k d) = Dv (ix2 k d))
    (h2 : ∀ (k : Fin 256) (d : Fin 1024), x2 (ix2 k d) = Cd (ix2 k d))
    (h3 : ∀ k : Fin 256, x3 (ix2 0 k) = C2 (ix2 0 k))
    (h4 : ∀ k : Fin 256, x4 (ix2 0 k) = W (ix2 0 k))
    (hk : y 1 = i 1) :
    k0_pay1 x0 x1 x2 x3 x4 y = Cert.Gmm.G X Dv Cd (fun k => C2 (ix2 0 k)) (fun k => W (ix2 0 k)) i := by
  obtain ⟨r, k, rfl⟩ : ∃ (r : Fin 512) (k : Fin 256), y = ix2 r k := ⟨y 0, y 1, eq_ix2 y⟩
  have h0' : ∀ d : Fin 1024, x0 (ix2 r d) = X (ix2 (i 0) d) := h0
  have hk' : k = i 1 := hk
  rw [BlockValue.payload_entry]
  unfold Cert.Gmm.G
  rw [← hk']
  simp only [h0', h1, h2, h3, h4]

/-! ## What a point writes back, the cover, and the array after the run -/

/-- `Cert.Gmm.G` of the arrays the region finds: the sample matrix, the two tables, and the two one-row tables read
    along their row. -/
abbrev found (c : Dev nD) : S8192x256.Idx → EReal :=
  Cert.Gmm.G (V m c main_arg0 : S8192x1024.Idx → EReal) (V m c main_v4 : S256x1024.Idx → EReal)
    (V m c main_v19 : S256x1024.Idx → EReal) (fun k => (V m c main_v17 : S1x256.Idx → EReal) (ix2 0 k))
    (fun k => (V m c main_v18 : S1x256.Idx → EReal) (ix2 0 k))

/-- What point `t` writes back is block `t` of `found`. -/
theorem flushed_eq (c : Dev nD) (t : Fin cfg0.N) :
    (dats m 0 c).flushed 5 t = ((cfg0.win 5).blk t).view.read (Elt Ideal) (found m c) := by
  rw [Value.flushed5]
  unfold out0_5
  rw [View.canon_unit_zero hz]
  simp only [View.ld_unit_zero (S := S512x1024) hz, View.ld_unit_zero (S := S256x1024) hz, View.ld_unit_zero (S := S1x256) hz]
  obtain ⟨-, -, -, -, -, -, -, -, -, -, e0, e1⟩ := idx_facts t
  funext y
  show k0_pay1 (iblk m c 0 t) (iblk m c 1 t) (iblk m c 2 t) (iblk m c 3 t) (iblk m c 4 t) y
    = found m c (((cfg0.win 5).blk t).view.emb y)
  have hr : ((((cfg0.win 5).blk t).view.emb y) 0).val = 512 * t.val + (y 0).val := by
    show win0_5.index t (0 : Fin 2) * 512 + 1 * (y 0).val = _
    rw [e0]; omega
  have hc : ((((cfg0.win 5).blk t).view.emb y) 1).val = (y 1).val := by
    show win0_5.index t (1 : Fin 2) * 256 + 1 * (y 1).val = _
    rw [e1]; omega
  refine block_entry _ _ _ _ _ _ _ _ _ _ y _ ?_ ?_ ?_ ?_ ?_ ?_
  · intro d
    exact samples_apply m c t _ _ hr rfl
  · intro k d
    exact dinv_apply m c t _
  · intro k d
    exact cdinv_apply m c t _
  · intro k
    exact c2_apply m c t _
  · intro k
    exact dss_apply m c t _
  · exact Fin.ext hc.symm

/-- An index of the result is in point `t`'s block iff each coordinate is in the block's range on its axis. -/
theorem mem_blk (t : Fin cfg0.N) (i : S8192x256.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v20).slice (win0_5.rect t)).set ↔ _
  rw [View.set_slice_whole, Rect.mem_set_unit]
  exact Iff.rfl

/-- Row `b` of the result lies in the block of point `b / 512`. -/
theorem cover (i : S8192x256.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 16 := N_0
  have ht : (i 0).val / 512 < cfg0.N := by rw [hN]; omega
  obtain ⟨-, -, -, -, -, -, -, -, -, -, e0, e1⟩ := idx_facts ⟨(i 0).val / 512, ht⟩
  refine ⟨⟨(i 0).val / 512, ht⟩, flush0_5 _, ?_⟩
  rw [mem_blk]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, ht⟩ (1 : Fin 2) * 256 ≤ (i 1).val
      ∧ (i 1).val < win0_5.index ⟨(i 0).val / 512, ht⟩ (1 : Fin 2) * 256 + 256
    rw [e1]
    omega

/-- The result array after the run is `found`. -/
theorem final (c : Dev nD) : (dats m 0 c).arrAt 5 cfg0.N = found m c :=
  (dats m 0 c).arrAt_eq_of_cover 5 (found m c) (fun t _ => flushed_eq m c t) cover

/-- The kernel's run, read: the result array ends at `found`, the arguments unchanged. -/
theorem run : θ_run defs (onTc (τ := τ) (main (F := Ideal))) ⟨m, fun _ => 0, ρ⟩ fun r => ∀ c : Dev nD,
      r.2.mem ((c : Thread nD τ).loc main_v20) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.Tables.lean ====
/-
  The four tables the kernel's host code prepares before the region are the reference's own intermediate values.

  Both programs derive them from the centres `C` and the scales `D` by the same operations in the same order, with the same
  literals: the inverse scales `1 / (|D| + ε)`; the centres times the inverse scales; the centres' weighted square norms
  `Σ_d C·C·dinv`; and the determinant weights `exp (s - max s)` with `s = -1/2 · Σ_d log (|D| + ε)`. So each table is
  the corresponding stage of the reference, term for term. Two differences are layout only: the kernel's host code
  converts the second table to a 16-bit format, which is the identity on the extended reals, and it reshapes the two
  vectors of length 256 to one-row matrices, whose entry `(0, k)` is the vector's entry `k`.
-/
import proofs.«170611_j87995289960656_2_alg».proof.Proof.Gen.KernelIdeal.Frame
import proofs.«170611_j87995289960656_2_alg».proof.Proof.Gen.ReferenceIdeal.Read
import Idealize.ShloMosaic.Lib.StableHlo.Run
import Idealize.ShloMosaic.Lib.ValueLayout

noncomputable section

namespace Cert.KernelIdeal.Tables

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The inverse scales. -/
theorem dinv_eq (c : Dev nD) :
    (V m c main_v4 : S256x1024.Idx → EReal)
      = Cert.ReferenceIdeal.Read.val_main_v4 (F := Ideal) (m ((c : Thread nD τ).loc main_arg2)) := by
  dsimp only [Gen.V, Gen.hostOps0]
  after_results
  rfl

/-- The centres times the inverse scales; the change of format is the identity. -/
theorem cdinv_eq (c : Dev nD) :
    (V m c main_v19 : S256x1024.Idx → EReal)
      = Cert.ReferenceIdeal.Read.val_main_v15 (F := Ideal) (m ((c : Thread nD τ).loc main_arg1)) (m ((c : Thread nD τ).loc main_arg2)) := by
  dsimp only [Gen.V, Gen.hostOps0]
  after_results
  rfl

/-- The centres' weighted square norms, read through the reshape to one row. -/
theorem c2_eq (c : Dev nD) (k : Fin 256) :
    (V m c main_v17 : S1x256.Idx → EReal) (ix2 0 k)
      = Cert.ReferenceIdeal.Read.val_main_v19 (F := Ideal) (m ((c : Thread nD τ).loc main_arg1)) (m ((c : Thread nD τ).loc main_arg2)) (ix1 k) := by
  have e : (V m c main_v17 : S1x256.Idx → EReal)
      = shapeCast S1x256 (Cert.ReferenceIdeal.Read.val_main_v19 (F := Ideal) (m ((c : Thread nD τ).loc main_arg1)) (m ((c : Thread nD τ).loc main_arg2)))
          shapeCasts_S256_S1x256 := by
    dsimp only [Gen.V, Gen.hostOps0]
    after_results
    rfl
  rw [e]
  exact shapeCast_a_1a_apply _ _ 0 k

/-- The determinant weights, read through the reshape to one row. -/
theorem dss_eq (c : Dev nD) (k : Fin 256) :
    (V m c main_v18 : S1x256.Idx → EReal) (ix2 0 k)
      = Cert.ReferenceIdeal.Read.val_main_v12 (F := Ideal) (m ((c : Thread nD τ).loc main_arg2)) (ix1 k) := by
  have e : (V m c main_v18 : S1x256.Idx → EReal)
      = shapeCast S1x256 (Cert.ReferenceIdeal.Read.val_main_v12 (F := Ideal) (m ((c : Thread nD τ).loc main_arg2)))
          shapeCasts_S256_S1x256 := by
    dsimp only [Gen.V, Gen.hostOps0]
    after_results
    rfl
  rw [e]
  exact shapeCast_a_1a_apply _ _ 0 k

end Cert.KernelIdeal.Tables

end
-- ==== Proof.RefValue.lean ====
/-
  What the reference computes, entry by entry: its result is `Cert.Gmm.G` of the sample matrix and of four of its own
  intermediate tables — the inverse scales, the centres times the inverse scales, the centres' weighted square norms and
  the determinant weights.

  Read at `(b, k)`, operation by operation: each of the two contractions is the sum over the 1024 axes of row `b` of the
  left operand times row `k` of the right one; the row of square norms and the row of weights, placed as a one-row matrix
  and repeated down the 8192 rows, read their entry `k`; the row maximum and the row sum, placed as a one-column matrix
  and repeated along the 256 columns, read their entry `b`; the row maximum is the fold of `max` from -∞ over the row, the
  row sum is the initial value zero plus the finite sum of the row.
-/
import proofs.«170611_j87995289960656_2_alg».proof.Proof.Gen.ReferenceIdeal.Read
import proofs.«170611_j87995289960656_2_alg».proof.Proof.Spec
import proofs.«170611_j87995289960656_2_alg».proof.Proof.LibRowMax

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S8192x1024, .f32⟩ : BufTy).Contents (Elt Ideal)) (x1 x2 : (⟨S256x1024, .f32⟩ : BufTy).Contents (Elt Ideal))

/-! ## The index maps of the layout operations, at an index given by coordinates -/

theorem lidx14 (b : Fin 8192) (k : Fin 256) (d : Fin 1024) : lidx_main_v14 (ix2 b k) d = ix2 b d :=
  funext fun a => Fin.ext (by match a with | ⟨0, _⟩ => rfl | ⟨1, _⟩ => rfl)
theorem ridx14 (b : Fin 8192) (k : Fin 256) (d : Fin 1024) : ridx_main_v14 (ix2 b k) d = ix2 k d :=
  funext fun a => Fin.ext (by match a with | ⟨0, _⟩ => rfl | ⟨1, _⟩ => rfl)
theorem lidx16 (b : Fin 8192) (k : Fin 256) (d : Fin 1024) : lidx_main_v16 (ix2 b k) d = ix2 b d :=
  funext fun a => Fin.ext (by match a with | ⟨0, _⟩ => rfl | ⟨1, _⟩ => rfl)
theorem ridx16 (b : Fin 8192) (k : Fin 256) (d : Fin 1024) : ridx_main_v16 (ix2 b k) d = ix2 k d :=
  funext fun a => Fin.ext (by match a with | ⟨0, _⟩ => rfl | ⟨1, _⟩ => rfl)
theorem idx24 (b : Fin 8192) (k : Fin 256) : idx_main_v23 (idx_main_v24 (ix2 b k)) = ix1 k :=
  funext fun a => Fin.ext (by match a with | ⟨0, _⟩ => rfl)
theorem idx34 (b : Fin 8192) (k : Fin 256) : idx_main_v32 (idx_main_v34 (ix2 b k)) = ix1 k :=
  funext fun a => Fin.ext (by match a with | ⟨0, _⟩ => rfl)
theorem idx30 (b : Fin 8192) (k : Fin 256) : idx_main_v29 (idx_main_v30 (ix2 b k)) = ix1 b :=
  funext fun a => Fin.ext (by match a with | ⟨0, _⟩ => rfl)
theorem idx38 (b : Fin 8192) (k : Fin 256) : idx_main_v37 (idx_main_v38 (ix2 b k)) = ix1 b :=
  funext fun a => Fin.ext (by match a with | ⟨0, _⟩ => rfl)
theorem idx36 (b : Fin 8192) (k : Fin 256) : idx_main_v36 (ix1 b) k = ix2 b k :=
  funext fun a => Fin.ext (by match a with | ⟨0, _⟩ => rfl | ⟨1, _⟩ => rfl)

/-! ## The exponents -/

/-- Minus half the squared distance, as the reference computes it: entry `(b, k)` is `Cert.Gmm.expo` of sample row `b`. -/
theorem expo_entry (b : Fin 8192) (k : Fin 256) :
    val_main_v27 (F := Ideal) x0 x1 x2 (ix2 b k)
      = Cert.Gmm.expo (fun d => x0 (ix2 b d)) (fun k d => val_main_v4 (F := Ideal) x2 (ix2 k d))
          (fun k d => val_main_v15 (F := Ideal) x1 x2 (ix2 k d)) (fun k => val_main_v19 (F := Ideal) x1 x2 (ix1 k)) k := by
  rw [val_main_v27_apply, val_main_v26_apply, val_main_cst_6_apply, val_main_v25_apply, val_main_v22_apply,
    val_main_v14_apply, val_main_v21_apply, val_main_v20_apply, val_main_cst_5_apply, val_main_v16_apply,
    val_main_v24_apply, val_main_v23_apply]
  simp only [lidx14, ridx14, lidx16, ridx16, idx24]
  rfl

/-! ## The row maximum and the weights -/

/-- The reference's row maximum at row `b`: the fold of `max` from -∞ over the row's exponents. -/
theorem rowMax_entry (b : Fin 8192) :
    val_main_v28 (F := Ideal) x0 x1 x2 (ix1 b) = Cert.Gmm.rowMax (fun k => val_main_v27 (F := Ideal) x0 x1 x2 (ix2 b k)) := by
  unfold val_main_v28 Cert.Gmm.rowMax
  exact Cert.LibRowMax.hostReduceMax_rows _ _ _ _ (by decide) b

/-- The unnormalised weights: entry `(b, k)` is `Cert.Gmm.numer` of row `b`'s exponents. -/
theorem numer_entry (b : Fin 8192) (k : Fin 256) :
    val_main_v35 (F := Ideal) x0 x1 x2 (ix2 b k)
      = Cert.Gmm.numer (fun k => val_main_v12 (F := Ideal) x2 (ix1 k))
          (Cert.Gmm.expo (fun d => x0 (ix2 b d)) (fun k d => val_main_v4 (F := Ideal) x2 (ix2 k d))
            (fun k d => val_main_v15 (F := Ideal) x1 x2 (ix2 k d)) (fun k => val_main_v19 (F := Ideal) x1 x2 (ix1 k))) k := by
  rw [val_main_v35_apply, val_main_v34_apply, val_main_v32_apply, val_main_v33_apply, val_main_v31_apply,
    val_main_v30_apply, val_main_v29_apply]
  simp only [idx34, idx30]
  rw [rowMax_entry]
  simp only [expo_entry]
  rfl

/-! ## The result -/

/-- The reference's result is `Cert.Gmm.G` of the samples and of its own four tables. -/
theorem result_eq :
    val_main_v39 (F := Ideal) x0 x1 x2
      = Cert.Gmm.G x0 (val_main_v4 (F := Ideal) x2) (val_main_v15 (F := Ideal) x1 x2)
          (fun k => val_main_v19 (F := Ideal) x1 x2 (ix1 k)) (fun k => val_main_v12 (F := Ideal) x2 (ix1 k)) := by
  funext i
  obtain ⟨b, k, rfl⟩ : ∃ (b : Fin 8192) (k : Fin 256), i = ix2 b k := ⟨i 0, i 1, eq_ix2 i⟩
  rw [val_main_v39_apply, val_main_v38_apply, val_main_v37_apply]
  simp only [idx38]
  rw [val_main_v36_apply]
  simp only [idx36, numer_entry, val_main_cst_8_apply]
  rw [show FloatOps.ofBits (F := Ideal) .f32 0x00000000#32 = 0 from Ideal.ofBits_zero_f32, zero_add]
  rfl

end Cert.ReferenceIdeal.RefValue

end
-- ==== Proof.lean ====
/-
  The responsibilities of a mixture of 256 axis-aligned Gaussians for 8192 samples in dimension 1024: a tiled kernel
  against a whole-array reference, equal entry by entry on the extended reals.

  Both programs compute, for sample row `x` and class `k`,
      resp k = dss k · exp (expo k - max_k' expo k') / Σ_k' dss k' · exp (expo k' - max expo),
      expo k = -1/2 · ( Σ_d x_d² / s_kd  -  2 · Σ_d x_d · c_kd / s_kd  +  Σ_d c_kd² / s_kd ),   s = |D| + ε,
  with the same literals and the same order of the operations that do not commute. The kernel differs from the
  reference only in ways that change nothing on the extended reals:
  • it prepares the per-class tables (1/s, c/s, Σ c²/s, dss) on the host and hands them to the region as arrays; they
    are the reference's own intermediate values (Proof/Tables.lean);
  • it works on 16 blocks of 512 sample rows; a result row depends on its own sample row only, so block `t` of the result
    is block `t` of the whole-array function, and the blocks cover the array (Proof/ArrayValue.lean);
  • inside a block the two contractions are matrix products into a zero accumulator, one of them on operands converted to
    a 16-bit format (the identity here), and the row maximum and row sum are lane reductions (Proof/BlockValue.lean);
    the reference's are host contractions and host reductions, read entry by entry in Proof/RefValue.lean.
  Both sides are the one function `Cert.Gmm.G` (Proof/Spec.lean) of the samples and the four tables. No step uses a law
  that fails at an infinity — the two sides are the same expression — so the finiteness of the inputs is never used.
  The idealization rewrote no operation, so there is nothing to preserve. The three frames are the generated runs.
-/
import proofs.«170611_j87995289960656_2_alg».proof.Defs
import proofs.«170611_j87995289960656_2_alg».proof.Proof.Gen.Kernel
import proofs.«170611_j87995289960656_2_alg».proof.Proof.Gen.Kernel.Skeleton
import proofs.«170611_j87995289960656_2_alg».proof.Proof.Gen.Kernel.Launch
import proofs.«170611_j87995289960656_2_alg».proof.Proof.Gen.Kernel.Points
import proofs.«170611_j87995289960656_2_alg».proof.Proof.Gen.Kernel.Frame
import proofs.«170611_j87995289960656_2_alg».proof.Proof.Gen.KernelIdeal
import proofs.«170611_j87995289960656_2_alg».proof.Proof.Gen.KernelIdeal.Skeleton
import proofs.«170611_j87995289960656_2_alg».proof.Proof.Gen.KernelIdeal.Launch
import proofs.«170611_j87995289960656_2_alg».proof.Proof.Gen.KernelIdeal.Points
import proofs.«170611_j87995289960656_2_alg».proof.Proof.Gen.KernelIdeal.Frame
import proofs.«170611_j87995289960656_2_alg».proof.Proof.Gen.ReferenceIdeal
import proofs.«170611_j87995289960656_2_alg».proof.Proof.Gen.Pre_finite_inputs
import proofs.«170611_j87995289960656_2_alg».proof.Proof.Gen.KernelIdeal.Value
import proofs.«170611_j87995289960656_2_alg».proof.Proof.Gen.ReferenceIdeal.Run
import proofs.«170611_j87995289960656_2_alg».proof.Proof.Gen.ReferenceIdeal.Read
import proofs.«170611_j87995289960656_2_alg».proof.Proof.ArrayValue
import proofs.«170611_j87995289960656_2_alg».proof.Proof.Tables
import proofs.«170611_j87995289960656_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged: the generated frame. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference has no region: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- What the kernel's region finds in memory is the sample matrix as launched and the reference's four tables of the
    centres and scales as launched: the kernel's result is `Cert.Gmm.G` of those. -/
theorem found_eq (m : (ℓ : Loc Cert.KernelIdeal.nD Cert.KernelIdeal.τ Cert.KernelIdeal.sig) → Buf (Elt Ideal) ℓ)
    (c : Dev Cert.KernelIdeal.nD) :
    Cert.KernelIdeal.ArrayValue.found m c
      = Cert.Gmm.G (m ((c : Thread Cert.KernelIdeal.nD Cert.KernelIdeal.τ).loc Cert.KernelIdeal.main_arg0))
          (Cert.ReferenceIdeal.Read.val_main_v4 (F := Ideal) (m ((c : Thread Cert.KernelIdeal.nD Cert.KernelIdeal.τ).loc Cert.KernelIdeal.main_arg2)))
          (Cert.ReferenceIdeal.Read.val_main_v15 (F := Ideal) (m ((c : Thread Cert.KernelIdeal.nD Cert.KernelIdeal.τ).loc Cert.KernelIdeal.main_arg1))
            (m ((c : Thread Cert.KernelIdeal.nD Cert.KernelIdeal.τ).loc Cert.KernelIdeal.main_arg2)))
          (fun k => Cert.ReferenceIdeal.Read.val_main_v19 (F := Ideal) (m ((c : Thread Cert.KernelIdeal.nD Cert.KernelIdeal.τ).loc Cert.KernelIdeal.main_arg1))
            (m ((c : Thread Cert.KernelIdeal.nD Cert.KernelIdeal.τ).loc Cert.KernelIdeal.main_arg2)) (ix1 k))
          (fun k => Cert.ReferenceIdeal.Read.val_main_v12 (F := Ideal) (m ((c : Thread Cert.KernelIdeal.nD Cert.KernelIdeal.τ).loc Cert.KernelIdeal.main_arg2)) (ix1 k)) := by
  unfold Cert.KernelIdeal.ArrayValue.found
  rw [Cert.KernelIdeal.Gen.V_main_arg0, Cert.KernelIdeal.Tables.dinv_eq, Cert.KernelIdeal.Tables.cdinv_eq,
    funext (Cert.KernelIdeal.Tables.c2_eq m c), funext (Cert.KernelIdeal.Tables.dss_eq m c)]

/-- From memories that agree on the arguments both programs end with the result array at `Cert.Gmm.G` of the samples and
    of the reference's four tables: the kernel by its run read block by block and the tables its host code prepared, the
    reference by its run read entry by entry. -/
theorem algebraic : Cert.algebraic_KernelIdeal_ReferenceIdeal := by
  intro m ρ m' ρ' _ hagree
  refine ⟨_, (θ_run Cert.KernelIdeal.defs _ _).mono (fun r h c => ⟨(h c).1.trans (found_eq m c), (h c).2⟩)
    (Cert.KernelIdeal.ArrayValue.run m ρ), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v39_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
